-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x128 .f32) (main_arg9 : FVec F S128 .f32) (main_arg10 : FVec F S128x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x256 .f32) (main_arg7 : FVec F S256 .f32) (main_arg8 : FVec F S256x128 .f32) (main_arg9 : FVec F S128 .f32) (main_arg10 : FVec F S128x128 .f32) (main_arg11 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 88
  | .vmem => 40
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x1, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S800000x1, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x1, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128, .f32⟩
  | .hbm, ⟨87, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x1, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .i1⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .i1⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .i1⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x1, .f32⟩
  | .hbm, ⟨104, _⟩ => ⟨S800000x128, .f32⟩
  | .hbm, ⟨105, _⟩ => ⟨S800000x128, .f32⟩
  | .hbm, ⟨106, _⟩ => ⟨S_, .f32⟩
  | .hbm, ⟨107, _⟩ => ⟨S50000x128, .f32⟩
  | .hbm, ⟨108, _⟩ => ⟨S800000x1, .i32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S_, .f32⟩
  | .hbm, ⟨114, _⟩ => ⟨S50000x128, .f32⟩
  | .hbm, ⟨115, _⟩ => ⟨S50000x128, .i1⟩
  | .hbm, ⟨116, _⟩ => ⟨S_, .f32⟩
  | .hbm, ⟨117, _⟩ => ⟨S50000x128, .f32⟩
  | .hbm, ⟨118, _⟩ => ⟨S50000x128, .f32⟩
  | .hbm, ⟨119, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its result named.

  @main is eight tiled regions among four stretches of host operations. Every weakly fair execution from a memory
  with zero counters terminates without a fault, and at the end every buffer outside the regions' scratch holds what
  the fold of the twelve segments over the launch memory leaves there: the result buffer holds the last region's
  output array, and the twelve argument arrays hold what they held at launch, since no segment writes one.
-/
import proofs.«102278_j2027224564236_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at what the fold of the
    segments leaves in it, and every argument array ends as launched. -/
theorem run_named : θ_run defs (onTc (τ := τ) (main (F := F))) ⟨m, fun _ => 0, ρ⟩ (fun r => ∀ c : Dev nD,
      r.2.mem ((c.tc : Thread nD τ).loc main_v63) = W12 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v63 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Run

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Spec.lean ====
/-
  The graph-convolution layer as plain functions of arrays over the extended reals, index by index.

  One layer maps node features `h` (one row per node) to `lrelu (A · (h · W) + b)`: a dense product of the feature
  rows with the weight matrix, a sparse product with the adjacency entries (kept abstract here: both programs
  compute it by the same gather, scaling and scatter-add, so it is only ever carried along), the bias added to every
  row, and the leaky rectifier with slope one quarter applied entry by entry.

  `dense h w` at (p, q) is the sum over the shared axis of row p of `h` against column q of `w`: no order of
  summation is left in it, so a product computed tile by tile over the rows and a product computed at once are the
  same function. `act t b` adds `b` along the rows and applies the rectifier: where the sum is at least zero the sum
  itself, elsewhere a quarter of it.
-/
import Idealize.ShloMosaic.Lib.ValueIdx
import Idealize.ShloMosaic.PureOps.Ideal

noncomputable section

namespace Cert.Gcn

open Idealize.ShloMosaic Idealize.ShloMosaic.ValueIdx
open scoped BigOperators

/-- The product of an n × k array with a k × d array: at (p, q) the sum over c of h (p, c) · w (c, q). -/
def dense {n k d : Nat} (h : (⟨2, ![n, k]⟩ : Shape).Idx → Ideal .f32) (w : (⟨2, ![k, d]⟩ : Shape).Idx → Ideal .f32) :
    (⟨2, ![n, d]⟩ : Shape).Idx → Ideal .f32 :=
  fun i => ∑ c : Fin k, h (ix2 (i 0) c) * w (ix2 c (i 1))

/-- The leaky rectifier with slope one quarter: `t` where `t ≥ 0`, a quarter of `t` elsewhere. -/
def lrelu (t : Ideal .f32) : Ideal .f32 :=
  Scalar.select (FloatOps.cmpf (F := Ideal) .oge t (FloatOps.ofBits .f32 0x00000000#32)) t
    (FloatOps.mulf (FloatOps.ofBits .f32 0x3E800000#32) t)

/-- The bias added along the rows, then the rectifier, entry by entry. -/
def act {n d : Nat} (t : (⟨2, ![n, d]⟩ : Shape).Idx → Ideal .f32) (b : (⟨1, ![d]⟩ : Shape).Idx → Ideal .f32) :
    (⟨2, ![n, d]⟩ : Shape).Idx → Ideal .f32 :=
  fun i => lrelu (FloatOps.addf (t i) (b (ix1 (i 1))))

end Cert.Gcn

end
-- ==== Proof.Dense0.lean ====
/-
  The first dense product, tile by tile: what the first region leaves in its output array.

  The region walks the 50000 feature rows in 25 tiles of 2000. At tile `t` the body multiplies rows
  2000·t … 2000·t + 1999 of the features (all 512 columns) with the whole 512 × 256 weight matrix into a zero
  accumulator, and writes the 2000 × 256 product back as rows 2000·t … of the output. Narrowing the operands to
  sixteen bits is the identity over the extended reals, so entry (p, q) of the tile is the sum over the shared axis
  of feature row 2000·t + p against weight column q: the tile is rows 2000·t … of `dense` of the two arrays. The 25
  tiles cover every row, so the output array ends as `dense` of the arrays the region found.
-/
import proofs.«102278_j2027224564236_1_alg».proof.Proof.Gen.KernelIdeal.Frame
import proofs.«102278_j2027224564236_1_alg».proof.Proof.LibPlainMatmul
import proofs.«102278_j2027224564236_1_alg».proof.Proof.Spec
import Idealize.ShloMosaic.Lib.Pipeline.Value
import Idealize.ShloMosaic.Lib.ValueIdx

set_option maxRecDepth 16384

noncomputable section

namespace Cert.KernelIdeal.Dense0

open Cert.KernelIdeal Cert.KernelIdeal.Gen Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- Entry (p, q) of the body's product: the sum over the shared axis of row p of the left tile against column q of
    the right one. -/
theorem pay_apply (x0 : Vec Ideal S2000x512 .f32) (x1 : Vec Ideal S512x256 .f32) (p : Fin 2000) (q : Fin 256) :
    k0_pay1 (F := Ideal) x0 x1 (ix2 p q) = ∑ c : Fin 512, x0 (ix2 p c) * x1 (ix2 c q) := by
  unfold k0_pay1
  exact Cert.LibPlainMatmul.matmul_zero_plain _ _ _ p q

/-- Where each window's tile sits in its array, decided over the 25 tiles: the feature tile and the output tile
    start at row 2000·t, the weight matrix is read whole. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- What tile `t` writes back is rows 2000·t … of the dense product of the arrays the region found. -/
theorem flushed_eq (c : Dev nD) (t : Fin cfg0.N) :
    (dat0 V c).flushed 2 t = ((cfg0.win 2).blk t).view.read (Elt Ideal)
      (Cert.Gcn.dense (n := 50000) (k := 512) (d := 256) (V c main_arg0) (V c main_arg4)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = Cert.Gcn.dense (n := 50000) (k := 512) (d := 256) (V c main_arg0) (V c main_arg4) (((cfg0.win 2).blk t).view.emb (ix2 p q))
  refine (pay_apply _ _ p q).trans ?_
  unfold Cert.Gcn.dense
  refine Finset.sum_congr rfl fun k _ => ?_
  obtain ⟨e0, e1, e2, e3, e4, e5⟩ := idx_facts t
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  refine congrArg₂ (fun a b : Ideal .f32 => a * b) ?_ ?_
  · exact congrArg (V c main_arg0) h0
  · exact congrArg (V c main_arg4) h1

/-- Row r of the output lies in tile r / 2000. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- The 25 tiles cover the output: row r is in tile r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e5]; dsimp only; omega
  | ⟨1, _⟩ => show win0_2.index _ (1 : Fin 2) * 256 ≤ (i 1).val ∧ (i 1).val < win0_2.index _ (1 : Fin 2) * 256 + 256; rw [e4]; omega

/-- The output array after the region: the dense product of the two arrays the region found. -/
theorem final (c : Dev nD) : (dat0 V c).arrAt 2 cfg0.N
    = Cert.Gcn.dense (n := 50000) (k := 512) (d := 256) (V c main_arg0) (V c main_arg4) :=
  (dat0 V c).arrAt_eq_of_cover 2 _ (fun t _ => flushed_eq V c t) cover

end Cert.KernelIdeal.Dense0

end
-- ==== Proof.Dense2.lean ====
/-
  The second dense product, tile by tile: what the second dense region leaves in its output array.

  The region walks the 50000 feature rows in 25 tiles of 2000. At tile `t` the body multiplies rows
  2000·t … 2000·t + 1999 of the features (all 256 columns) with the whole 256 × 256 weight matrix into a zero
  accumulator, and writes the 2000 × 256 product back as rows 2000·t … of the output. Re-laying the left tile at its own shape and narrowing the operands to
  sixteen bits are the identity over the extended reals, so entry (p, q) of the tile is the sum over the shared axis
  of feature row 2000·t + p against weight column q: the tile is rows 2000·t … of `dense` of the two arrays. The 25
  tiles cover every row, so the output array ends as `dense` of the arrays the region found.
-/
import proofs.«102278_j2027224564236_1_alg».proof.Proof.Gen.KernelIdeal.Frame
import proofs.«102278_j2027224564236_1_alg».proof.Proof.LibPlainMatmul
import proofs.«102278_j2027224564236_1_alg».proof.Proof.Spec
import Idealize.ShloMosaic.Lib.Pipeline.Value
import Idealize.ShloMosaic.Lib.ValueIdx

set_option maxRecDepth 16384

noncomputable section

namespace Cert.KernelIdeal.Dense2

open Cert.KernelIdeal Cert.KernelIdeal.Gen Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- Entry (p, q) of the body's product: the sum over the shared axis of row p of the left tile against column q of
    the right one. -/
theorem pay_apply (x0 : Vec Ideal S2000x256 .f32) (x1 : Vec Ideal S256x256 .f32) (p : Fin 2000) (q : Fin 256) :
    k2_pay1 (F := Ideal) x0 x1 (ix2 p q) = ∑ c : Fin 256, x0 (ix2 p c) * x1 (ix2 c q) := by
  unfold k2_pay1
  rw [shapeCast_self]
  exact Cert.LibPlainMatmul.matmul_zero_plain _ _ _ p q

/-- Where each window's tile sits in its array, decided over the 25 tiles: the feature tile and the output tile
    start at row 2000·t, the weight matrix is read whole. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

variable (V : (c : Dev nD) → (b : Ref sig .tc) → Buf (Elt Ideal) ((c : Thread nD τ).loc b))

/-- What tile `t` writes back is rows 2000·t … of the dense product of the arrays the region found. -/
theorem flushed_eq (c : Dev nD) (t : Fin cfg2.N) :
    (dat2 V c).flushed 2 t = ((cfg2.win 2).blk t).view.read (Elt Ideal)
      (Cert.Gcn.dense (n := 50000) (k := 256) (d := 256) (V c main_v15) (V c main_arg6)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (ix2 p q)
    = Cert.Gcn.dense (n := 50000) (k := 256) (d := 256) (V c main_v15) (V c main_arg6) (((cfg2.win 2).blk t).view.emb (ix2 p q))
  refine (pay_apply _ _ p q).trans ?_
  unfold Cert.Gcn.dense
  refine Finset.sum_congr rfl fun k _ => ?_
  obtain ⟨e0, e1, e2, e3, e4, e5⟩ := idx_facts t
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 256 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  refine congrArg₂ (fun a b : Ideal .f32 => a * b) ?_ ?_
  · exact congrArg (V c main_v15) h0
  · exact congrArg (V c main_arg6) h1

/-- Row r of the output lies in tile r / 2000. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v16).slice (win2_2.rect t)).set ↔ _
  rw [View.set_slice_whole, Rect.mem_set_unit]
  exact Iff.rfl

/-- The 25 tiles cover the output: row r is in tile r / 2000. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_2 _, ?_⟩
  rw [mem_blk]
  obtain ⟨e0, e1, e2, e3, e4, e5⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e5]; dsimp only; omega
  | ⟨1, _⟩ => show win2_2.index _ (1 : Fin 2) * 256 ≤ (i 1).val ∧ (i 1).val < win2_2.index _ (1 : Fin 2) * 256 + 256; rw [e4]; omega

/-- The output array after the region: the dense product of the two arrays the region found. -/
theorem final (c : Dev nD) : (dat2 V c).arrAt 2 cfg2.N
    = Cert.Gcn.dense (n := 50000) (k := 256) (d := 256) (V c main_v15) (V c main_arg6) :=
  (dat2 V c).arrAt_eq_of_cover 2 _ (fun t _ => flushed_eq V c t) cover

end Cert.KernelIdeal.Dense2

end
-- ==== Proof.Dense4.lean ====
/-
  The third dense product, tile by tile: what the third dense region leaves in its output array.

  The region walks the 50000 feature rows in 25 tiles of 2000. At tile `t` the body multiplies rows
  2000·t … 2000·t + 1999 of the features (all 256 columns) with the whole 256 × 128 weight matrix into a zero
  accumulator, and writes the 2000 × 128 product back as rows 2000·t … of the output. Re-laying the left tile at its own shape and narrowing the operands to
  sixteen bits are the identity over the extended reals, so entry (p, q) of the tile is the sum over the shared axis
  of feature row 2000·t + p against weight column q: the tile is rows 2000·t … of `dense` of the two arrays. The 25
  tiles cover every row, so the output array ends as `dense` of the arrays the region found.
-/
import proofs.«102278_j2027224564236_1_alg».proof.Proof.Gen.KernelIdeal.Frame
import proofs.«102278_j2027224564236_1_alg».proof.Proof.LibPlainMatmul
import proofs.«102278_j2027224564236_1_alg».proof.Proof.Spec
import Idealize.ShloMosaic.Lib.Pipeline.Value
import Idealize.ShloMosaic.Lib.ValueIdx

set_option maxRecDepth 16384

noncomputable section

namespace Cert.KernelIdeal.Dense4

open Cert.KernelIdeal Cert.KernelIdeal.Gen Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- Entry (p, q) of the body's product: the sum over the shared axis of row p of the left tile against column q of
    the right one. -/
theorem pay_apply (x0 : Vec Ideal S2000x256 .f32) (x1 : Vec Ideal S256x128 .f32) (p : Fin 2000) (q : Fin 128) :
    k4_pay1 (F := Ideal) x0 x1 (ix2 p q) = ∑ c : Fin 256, x0 (ix2 p c) * x1 (ix2 c q) := by
  unfold k4_pay1
  rw [shapeCast_self]
  exact Cert.LibPlainMatmul.matmul_zero_plain _ _ _ p q

/-- Where each window's tile sits in its array, decided over the 25 tiles: the feature tile and the output tile
    start at row 2000·t, the weight matrix is read whole. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

variable (V : (c : Dev nD) → (b : Ref sig .tc) → Buf (Elt Ideal) ((c : Thread nD τ).loc b))

/-- What tile `t` writes back is rows 2000·t … of the dense product of the arrays the region found. -/
theorem flushed_eq (c : Dev nD) (t : Fin cfg4.N) :
    (dat4 V c).flushed 2 t = ((cfg4.win 2).blk t).view.read (Elt Ideal)
      (Cert.Gcn.dense (n := 50000) (k := 256) (d := 128) (V c main_v31) (V c main_arg8)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x128) hz]
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q)
    = Cert.Gcn.dense (n := 50000) (k := 256) (d := 128) (V c main_v31) (V c main_arg8) (((cfg4.win 2).blk t).view.emb (ix2 p q))
  refine (pay_apply _ _ p q).trans ?_
  unfold Cert.Gcn.dense
  refine Finset.sum_congr rfl fun k _ => ?_
  obtain ⟨e0, e1, e2, e3, e4, e5⟩ := idx_facts t
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 256 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 256 + 1 * k.val = k.val; omega
    | ⟨1, _⟩ => show win4_1.index t (1 : Fin 2) * 128 + 1 * q.val = win4_2.index t (1 : Fin 2) * 128 + 1 * q.val; omega
  refine congrArg₂ (fun a b : Ideal .f32 => a * b) ?_ ?_
  · exact congrArg (V c main_v31) h0
  · exact congrArg (V c main_arg8) h1

/-- Row r of the output lies in tile r / 2000. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v32).slice (win4_2.rect t)).set ↔ _
  rw [View.set_slice_whole, Rect.mem_set_unit]
  exact Iff.rfl

/-- The 25 tiles cover the output: row r is in tile r / 2000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_2 _, ?_⟩
  rw [mem_blk]
  obtain ⟨e0, e1, e2, e3, e4, e5⟩ := idx_facts ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e5]; dsimp only; omega
  | ⟨1, _⟩ => show win4_2.index _ (1 : Fin 2) * 128 ≤ (i 1).val ∧ (i 1).val < win4_2.index _ (1 : Fin 2) * 128 + 128; rw [e4]; omega

/-- The output array after the region: the dense product of the two arrays the region found. -/
theorem final (c : Dev nD) : (dat4 V c).arrAt 2 cfg4.N
    = Cert.Gcn.dense (n := 50000) (k := 256) (d := 128) (V c main_v31) (V c main_arg8) :=
  (dat4 V c).arrAt_eq_of_cover 2 _ (fun t _ => flushed_eq V c t) cover

end Cert.KernelIdeal.Dense4

end
-- ==== Proof.Dense6.lean ====
/-
  The fourth dense product, tile by tile: what the fourth dense region leaves in its output array.

  The region walks the 50000 feature rows in 25 tiles of 2000. At tile `t` the body multiplies rows
  2000·t … 2000·t + 1999 of the features (all 128 columns) with the whole 128 × 128 weight matrix into a zero
  accumulator, and writes the 2000 × 128 product back as rows 2000·t … of the output. Re-laying the left tile at its own shape and narrowing the operands to
  sixteen bits are the identity over the extended reals, so entry (p, q) of the tile is the sum over the shared axis
  of feature row 2000·t + p against weight column q: the tile is rows 2000·t … of `dense` of the two arrays. The 25
  tiles cover every row, so the output array ends as `dense` of the arrays the region found.
-/
import proofs.«102278_j2027224564236_1_alg».proof.Proof.Gen.KernelIdeal.Frame
import proofs.«102278_j2027224564236_1_alg».proof.Proof.LibPlainMatmul
import proofs.«102278_j2027224564236_1_alg».proof.Proof.Spec
import Idealize.ShloMosaic.Lib.Pipeline.Value
import Idealize.ShloMosaic.Lib.ValueIdx

set_option maxRecDepth 16384

noncomputable section

namespace Cert.KernelIdeal.Dense6

open Cert.KernelIdeal Cert.KernelIdeal.Gen Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- Entry (p, q) of the body's product: the sum over the shared axis of row p of the left tile against column q of
    the right one. -/
theorem pay_apply (x0 : Vec Ideal S2000x128 .f32) (x1 : Vec Ideal S128x128 .f32) (p : Fin 2000) (q : Fin 128) :
    k6_pay1 (F := Ideal) x0 x1 (ix2 p q) = ∑ c : Fin 128, x0 (ix2 p c) * x1 (ix2 c q) := by
  unfold k6_pay1
  rw [shapeCast_self]
  exact Cert.LibPlainMatmul.matmul_zero_plain _ _ _ p q

/-- Where each window's tile sits in its array, decided over the 25 tiles: the feature tile and the output tile
    start at row 2000·t, the weight matrix is read whole. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) = t.val :=
  (by decide +kernel : ∀ t : Fin grid6.N, _)

variable (V : (c : Dev nD) → (b : Ref sig .tc) → Buf (Elt Ideal) ((c : Thread nD τ).loc b))

/-- What tile `t` writes back is rows 2000·t … of the dense product of the arrays the region found. -/
theorem flushed_eq (c : Dev nD) (t : Fin cfg6.N) :
    (dat6 V c).flushed 2 t = ((cfg6.win 2).blk t).view.read (Elt Ideal)
      (Cert.Gcn.dense (n := 50000) (k := 128) (d := 128) (V c main_v47) (V c main_arg10)) := by
  show (cfg6.win 2).cut (grid6.coords t) ((dat6 V c).after 2 t) = _
  rw [after6_2]
  unfold out6_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k6_pay1 (F := Ideal) (iblk6 V c 0 t) (iblk6 V c 1 t) (ix2 p q)
    = Cert.Gcn.dense (n := 50000) (k := 128) (d := 128) (V c main_v47) (V c main_arg10) (((cfg6.win 2).blk t).view.emb (ix2 p q))
  refine (pay_apply _ _ p q).trans ?_
  unfold Cert.Gcn.dense
  refine Finset.sum_congr rfl fun k _ => ?_
  obtain ⟨e0, e1, e2, e3, e4, e5⟩ := idx_facts t
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 2000 + 1 * p.val = win6_2.index t (0 : Fin 2) * 2000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  refine congrArg₂ (fun a b : Ideal .f32 => a * b) ?_ ?_
  · exact congrArg (V c main_v47) h0
  · exact congrArg (V c main_arg10) h1

/-- Row r of the output lies in tile r / 2000. -/
theorem mem_blk (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v48).slice (win6_2.rect t)).set ↔ _
  rw [View.set_slice_whole, Rect.mem_set_unit]
  exact Iff.rfl

/-- The 25 tiles cover the output: row r is in tile r / 2000. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  refine ⟨⟨(i 0).val / 2000, by rw [hN]; omega⟩, flush6_2 _, ?_⟩
  rw [mem_blk]
  obtain ⟨e0, e1, e2, e3, e4, e5⟩ := idx_facts ⟨(i 0).val / 2000, by rw [hN]; omega⟩
  intro a
  match a with
  | ⟨0, _⟩ => show win6_2.index _ (0 : Fin 2) * 2000 ≤ (i 0).val ∧ (i 0).val < win6_2.index _ (0 : Fin 2) * 2000 + 2000; rw [e5]; dsimp only; omega
  | ⟨1, _⟩ => show win6_2.index _ (1 : Fin 2) * 128 ≤ (i 1).val ∧ (i 1).val < win6_2.index _ (1 : Fin 2) * 128 + 128; rw [e4]; omega

/-- The output array after the region: the dense product of the two arrays the region found. -/
theorem final (c : Dev nD) : (dat6 V c).arrAt 2 cfg6.N
    = Cert.Gcn.dense (n := 50000) (k := 128) (d := 128) (V c main_v47) (V c main_arg10) :=
  (dat6 V c).arrAt_eq_of_cover 2 _ (fun t _ => flushed_eq V c t) cover

end Cert.KernelIdeal.Dense6

end
-- ==== Proof.Act1.lean ====
/-
  The first bias-and-rectifier pass, tile by tile: what the region after the first sparse product leaves in its
  output array.

  The region walks the 50000 rows in 25 tiles of 2000. At tile `t` the body adds the one-row bias array to every
  row of rows 2000·t … 2000·t + 1999 of its input and applies the leaky rectifier entry by entry: where the sum is
  at least zero the sum, elsewhere a quarter of it. Entry (p, q) of the tile depends on entry (2000·t + p, q) of the
  input and entry q of the bias row only, so the tile is rows 2000·t … of `act` of the two arrays, and the 25 tiles
  cover every row.
-/
import proofs.«102278_j2027224564236_1_alg».proof.Proof.Gen.KernelIdeal.Frame
import proofs.«102278_j2027224564236_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act1

open Cert.KernelIdeal Cert.KernelIdeal.Gen Idealize.ShloMosaic Idealize.ShloMosaic.TcCoe Idealize.ShloMosaic.ValueIdx
open Idealize.SL.Sem

theorem hz : (![0, 0] : Fin 2 → Nat) = fun _ => 0 := funext fun a => by fin_cases a <;> rfl

/-- Entry (p, q) of the body's result: the rectifier of input entry (p, q) plus bias entry q. -/
theorem pay_apply (x0 : Vec Ideal S2000x256 .f32) (x1 : Vec Ideal S1x256 .f32) (p : Fin 2000) (q : Fin 256) :
    k1_pay1 (F := Ideal) x0 x1 (ix2 p q)
      = Cert.Gcn.lrelu (FloatOps.addf (x0 (ix2 p q)) (x1 (ix2 (0 : Fin 1) q))) := by
  unfold k1_pay1
  rw [shapeCast_self, shapeCast_self]
  have hb : broadcastTo S2000x256 x1 broadcasts_S1x256_S2000x256 (ix2 p q) = x1 (ix2 (0 : Fin 1) q) :=
    broadcastTo_1b_ab_apply x1 _ p q
  show Cert.Gcn.lrelu (FloatOps.addf (x0 (ix2 p q)) (broadcastTo S2000x256 x1 broadcasts_S1x256_S2000x256 (ix2 p q))) = _
  rw [hb]

/-- Where each window's tile sits in its array, decided over the 25 tiles: the input tile and the output tile start
    at row 2000·t, the bias row is read whole. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

/-- What tile `t` writes back is rows 2000·t … of `act` of the arrays the region found. -/
theorem flushed_eq (c : Dev nD) (t : Fin cfg1.N) :
    (dat1 V c).flushed 2 t = ((cfg1.win 2).blk t).view.read (Elt Ideal)
      (Cert.Gcn.act (n := 50000) (d := 256) (V c main_v13) (fun i => V c main_v14 (ix2 (0 : Fin 1) (i 0)))) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (ix2 p q)
    = Cert.Gcn.act (n := 50000) (d := 256) (V c main_v13) (fun i => V c main_v14 (ix2 (0 : Fin 1) (i 0))) (((cfg1.win 2).blk t).view.emb (ix2 p q))
  refine (pay_apply _ _ p q).trans ?_
  unfold Cert.Gcn.act
  obtain ⟨e0, e1, e2, e3, e4, e5⟩ := idx_facts t
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  refine congrArg Cert.Gcn.lrelu (congrArg₂ (fun a b : Ideal .f32 => FloatOps.addf a b) ?_ ?_)
  · exact congrArg (V c main_v13) h0
  · exact congrArg (V c main_v14) h1

/-- Which rows of the output a tile holds. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v15).slice (win1_2.rect t)).set ↔ _
  rw [View.set_slice_whole, Rect.mem_set_unit]
  exact Iff.rfl

/-- The 25 tiles cover the output: row r is in tile r / 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e5]; dsimp only; omega
  | ⟨1, _⟩ => show win1_2.index _ (1 : Fin 2) * 256 ≤ (i 1).val ∧ (i 1).val < win1_2.index _ (1 : Fin 2) * 256 + 256; rw [e4]; omega

/-- The output array after the region: `act` of the two arrays the region found. -/
theorem final (c : Dev nD) : (dat1 V c).arrAt 2 cfg1.N
    = Cert.Gcn.act (n := 50000) (d := 256) (V c main_v13) (fun i => V c main_v14 (ix2 (0 : Fin 1) (i 0))) :=
  (dat1 V c).arrAt_eq_of_cover 2 _ (fun t _ => flushed_eq V c t) cover

end Cert.KernelIdeal.Act1

end
-- ==== Proof.Act3.lean ====
/-
  The second bias-and-rectifier pass, tile by tile: what the region after the second sparse product leaves in its
  output array.

  The region walks the 50000 rows in 25 tiles of 2000. At tile `t` the body adds the one-row bias array to every
  row of rows 2000·t … 2000·t + 1999 of its input and applies the leaky rectifier entry by entry: where the sum is
  at least zero the sum, elsewhere a quarter of it. Entry (p, q) of the tile depends on entry (2000·t + p, q) of the
  input and entry q of the bias row only, so the tile is rows 2000·t … of `act` of the two arrays, and the 25 tiles
  cover every row.
-/
import proofs.«102278_j2027224564236_1_alg».proof.Proof.Gen.KernelIdeal.Frame
import proofs.«102278_j2027224564236_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act3

open Cert.KernelIdeal Cert.KernelIdeal.Gen Idealize.ShloMosaic Idealize.ShloMosaic.TcCoe Idealize.ShloMosaic.ValueIdx
open Idealize.SL.Sem

theorem hz : (![0, 0] : Fin 2 → Nat) = fun _ => 0 := funext fun a => by fin_cases a <;> rfl

/-- Entry (p, q) of the body's result: the rectifier of input entry (p, q) plus bias entry q. -/
theorem pay_apply (x0 : Vec Ideal S2000x256 .f32) (x1 : Vec Ideal S1x256 .f32) (p : Fin 2000) (q : Fin 256) :
    k3_pay1 (F := Ideal) x0 x1 (ix2 p q)
      = Cert.Gcn.lrelu (FloatOps.addf (x0 (ix2 p q)) (x1 (ix2 (0 : Fin 1) q))) := by
  unfold k3_pay1
  rw [shapeCast_self, shapeCast_self]
  have hb : broadcastTo S2000x256 x1 broadcasts_S1x256_S2000x256 (ix2 p q) = x1 (ix2 (0 : Fin 1) q) :=
    broadcastTo_1b_ab_apply x1 _ p q
  show Cert.Gcn.lrelu (FloatOps.addf (x0 (ix2 p q)) (broadcastTo S2000x256 x1 broadcasts_S1x256_S2000x256 (ix2 p q))) = _
  rw [hb]

/-- Where each window's tile sits in its array, decided over the 25 tiles: the input tile and the output tile start
    at row 2000·t, the bias row is read whole. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

variable (V : (c : Dev nD) → (b : Ref sig .tc) → Buf (Elt Ideal) ((c : Thread nD τ).loc b))

/-- What tile `t` writes back is rows 2000·t … of `act` of the arrays the region found. -/
theorem flushed_eq (c : Dev nD) (t : Fin cfg3.N) :
    (dat3 V c).flushed 2 t = ((cfg3.win 2).blk t).view.read (Elt Ideal)
      (Cert.Gcn.act (n := 50000) (d := 256) (V c main_v29) (fun i => V c main_v30 (ix2 (0 : Fin 1) (i 0)))) := by
  show (cfg3.win 2).cut (grid3.coords t) ((dat3 V c).after 2 t) = _
  rw [after3_2]
  unfold out3_2
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (ix2 p q)
    = Cert.Gcn.act (n := 50000) (d := 256) (V c main_v29) (fun i => V c main_v30 (ix2 (0 : Fin 1) (i 0))) (((cfg3.win 2).blk t).view.emb (ix2 p q))
  refine (pay_apply _ _ p q).trans ?_
  unfold Cert.Gcn.act
  obtain ⟨e0, e1, e2, e3, e4, e5⟩ := idx_facts t
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 256 + 1 * q.val = win3_2.index t (1 : Fin 2) * 256 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega
  refine congrArg Cert.Gcn.lrelu (congrArg₂ (fun a b : Ideal .f32 => FloatOps.addf a b) ?_ ?_)
  · exact congrArg (V c main_v29) h0
  · exact congrArg (V c main_v30) h1

/-- Which rows of the output a tile holds. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v31).slice (win3_2.rect t)).set ↔ _
  rw [View.set_slice_whole, Rect.mem_set_unit]
  exact Iff.rfl

/-- The 25 tiles cover the output: row r is in tile r / 2000. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_2 _, ?_⟩
  rw [mem_blk]
  obtain ⟨e0, e1, e2, e3, e4, e5⟩ := idx_facts ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e5]; dsimp only; omega
  | ⟨1, _⟩ => show win3_2.index _ (1 : Fin 2) * 256 ≤ (i 1).val ∧ (i 1).val < win3_2.index _ (1 : Fin 2) * 256 + 256; rw [e4]; omega

/-- The output array after the region: `act` of the two arrays the region found. -/
theorem final (c : Dev nD) : (dat3 V c).arrAt 2 cfg3.N
    = Cert.Gcn.act (n := 50000) (d := 256) (V c main_v29) (fun i => V c main_v30 (ix2 (0 : Fin 1) (i 0))) :=
  (dat3 V c).arrAt_eq_of_cover 2 _ (fun t _ => flushed_eq V c t) cover

end Cert.KernelIdeal.Act3

end
-- ==== Proof.Act5.lean ====
/-
  The third bias-and-rectifier pass, tile by tile: what the region after the third sparse product leaves in its
  output array.

  The region walks the 50000 rows in 25 tiles of 2000. At tile `t` the body adds the one-row bias array to every
  row of rows 2000·t … 2000·t + 1999 of its input and applies the leaky rectifier entry by entry: where the sum is
  at least zero the sum, elsewhere a quarter of it. Entry (p, q) of the tile depends on entry (2000·t + p, q) of the
  input and entry q of the bias row only, so the tile is rows 2000·t … of `act` of the two arrays, and the 25 tiles
  cover every row.
-/
import proofs.«102278_j2027224564236_1_alg».proof.Proof.Gen.KernelIdeal.Frame
import proofs.«102278_j2027224564236_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act5

open Cert.KernelIdeal Cert.KernelIdeal.Gen Idealize.ShloMosaic Idealize.ShloMosaic.TcCoe Idealize.ShloMosaic.ValueIdx
open Idealize.SL.Sem

theorem hz : (![0, 0] : Fin 2 → Nat) = fun _ => 0 := funext fun a => by fin_cases a <;> rfl

/-- Entry (p, q) of the body's result: the rectifier of input entry (p, q) plus bias entry q. -/
theorem pay_apply (x0 : Vec Ideal S2000x128 .f32) (x1 : Vec Ideal S1x128 .f32) (p : Fin 2000) (q : Fin 128) :
    k5_pay1 (F := Ideal) x0 x1 (ix2 p q)
      = Cert.Gcn.lrelu (FloatOps.addf (x0 (ix2 p q)) (x1 (ix2 (0 : Fin 1) q))) := by
  unfold k5_pay1
  rw [shapeCast_self, shapeCast_self]
  have hb : broadcastTo S2000x128 x1 broadcasts_S1x128_S2000x128 (ix2 p q) = x1 (ix2 (0 : Fin 1) q) :=
    broadcastTo_1b_ab_apply x1 _ p q
  show Cert.Gcn.lrelu (FloatOps.addf (x0 (ix2 p q)) (broadcastTo S2000x128 x1 broadcasts_S1x128_S2000x128 (ix2 p q))) = _
  rw [hb]

/-- Where each window's tile sits in its array, decided over the 25 tiles: the input tile and the output tile start
    at row 2000·t, the bias row is read whole. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

variable (V : (c : Dev nD) → (b : Ref sig .tc) → Buf (Elt Ideal) ((c : Thread nD τ).loc b))

/-- What tile `t` writes back is rows 2000·t … of `act` of the arrays the region found. -/
theorem flushed_eq (c : Dev nD) (t : Fin cfg5.N) :
    (dat5 V c).flushed 2 t = ((cfg5.win 2).blk t).view.read (Elt Ideal)
      (Cert.Gcn.act (n := 50000) (d := 128) (V c main_v45) (fun i => V c main_v46 (ix2 (0 : Fin 1) (i 0)))) := by
  show (cfg5.win 2).cut (grid5.coords t) ((dat5 V c).after 2 t) = _
  rw [after5_2]
  unfold out5_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (ix2 p q)
    = Cert.Gcn.act (n := 50000) (d := 128) (V c main_v45) (fun i => V c main_v46 (ix2 (0 : Fin 1) (i 0))) (((cfg5.win 2).blk t).view.emb (ix2 p q))
  refine (pay_apply _ _ p q).trans ?_
  unfold Cert.Gcn.act
  obtain ⟨e0, e1, e2, e3, e4, e5⟩ := idx_facts t
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q) = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  refine congrArg Cert.Gcn.lrelu (congrArg₂ (fun a b : Ideal .f32 => FloatOps.addf a b) ?_ ?_)
  · exact congrArg (V c main_v45) h0
  · exact congrArg (V c main_v46) h1

/-- Which rows of the output a tile holds. -/
theorem mem_blk (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v47).slice (win5_2.rect t)).set ↔ _
  rw [View.set_slice_whole, Rect.mem_set_unit]
  exact Iff.rfl

/-- The 25 tiles cover the output: row r is in tile r / 2000. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_2 _, ?_⟩
  rw [mem_blk]
  obtain ⟨e0, e1, e2, e3, e4, e5⟩ := idx_facts ⟨(i 0).val / 2000, by rw [hN]; omega⟩
  intro a
  match a with
  | ⟨0, _⟩ => show win5_2.index _ (0 : Fin 2) * 2000 ≤ (i 0).val ∧ (i 0).val < win5_2.index _ (0 : Fin 2) * 2000 + 2000; rw [e5]; dsimp only; omega
  | ⟨1, _⟩ => show win5_2.index _ (1 : Fin 2) * 128 ≤ (i 1).val ∧ (i 1).val < win5_2.index _ (1 : Fin 2) * 128 + 128; rw [e4]; omega

/-- The output array after the region: `act` of the two arrays the region found. -/
theorem final (c : Dev nD) : (dat5 V c).arrAt 2 cfg5.N
    = Cert.Gcn.act (n := 50000) (d := 128) (V c main_v45) (fun i => V c main_v46 (ix2 (0 : Fin 1) (i 0))) :=
  (dat5 V c).arrAt_eq_of_cover 2 _ (fun t _ => flushed_eq V c t) cover

end Cert.KernelIdeal.Act5

end
-- ==== Proof.Act7.lean ====
/-
  The fourth bias-and-rectifier pass, tile by tile: what the region after the fourth sparse product leaves in its
  output array.

  The region walks the 50000 rows in 25 tiles of 2000. At tile `t` the body adds the one-row bias array to every
  row of rows 2000·t … 2000·t + 1999 of its input and applies the leaky rectifier entry by entry: where the sum is
  at least zero the sum, elsewhere a quarter of it. Entry (p, q) of the tile depends on entry (2000·t + p, q) of the
  input and entry q of the bias row only, so the tile is rows 2000·t … of `act` of the two arrays, and the 25 tiles
  cover every row.
-/
import proofs.«102278_j2027224564236_1_alg».proof.Proof.Gen.KernelIdeal.Frame
import proofs.«102278_j2027224564236_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Act7

open Cert.KernelIdeal Cert.KernelIdeal.Gen Idealize.ShloMosaic Idealize.ShloMosaic.TcCoe Idealize.ShloMosaic.ValueIdx
open Idealize.SL.Sem

theorem hz : (![0, 0] : Fin 2 → Nat) = fun _ => 0 := funext fun a => by fin_cases a <;> rfl

/-- Entry (p, q) of the body's result: the rectifier of input entry (p, q) plus bias entry q. -/
theorem pay_apply (x0 : Vec Ideal S2000x128 .f32) (x1 : Vec Ideal S1x128 .f32) (p : Fin 2000) (q : Fin 128) :
    k7_pay1 (F := Ideal) x0 x1 (ix2 p q)
      = Cert.Gcn.lrelu (FloatOps.addf (x0 (ix2 p q)) (x1 (ix2 (0 : Fin 1) q))) := by
  unfold k7_pay1
  rw [shapeCast_self, shapeCast_self]
  have hb : broadcastTo S2000x128 x1 broadcasts_S1x128_S2000x128 (ix2 p q) = x1 (ix2 (0 : Fin 1) q) :=
    broadcastTo_1b_ab_apply x1 _ p q
  show Cert.Gcn.lrelu (FloatOps.addf (x0 (ix2 p q)) (broadcastTo S2000x128 x1 broadcasts_S1x128_S2000x128 (ix2 p q))) = _
  rw [hb]

/-- Where each window's tile sits in its array, decided over the 25 tiles: the input tile and the output tile start
    at row 2000·t, the bias row is read whole. -/
theorem idx_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) = t.val :=
  (by decide +kernel : ∀ t : Fin grid7.N, _)

variable (V : (c : Dev nD) → (b : Ref sig .tc) → Buf (Elt Ideal) ((c : Thread nD τ).loc b))

/-- What tile `t` writes back is rows 2000·t … of `act` of the arrays the region found. -/
theorem flushed_eq (c : Dev nD) (t : Fin cfg7.N) :
    (dat7 V c).flushed 2 t = ((cfg7.win 2).blk t).view.read (Elt Ideal)
      (Cert.Gcn.act (n := 50000) (d := 128) (V c main_v61) (fun i => V c main_v62 (ix2 (0 : Fin 1) (i 0)))) := by
  show (cfg7.win 2).cut (grid7.coords t) ((dat7 V c).after 2 t) = _
  rw [after7_2]
  unfold out7_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k7_pay1 (F := Ideal) (iblk7 V c 0 t) (iblk7 V c 1 t) (ix2 p q)
    = Cert.Gcn.act (n := 50000) (d := 128) (V c main_v61) (fun i => V c main_v62 (ix2 (0 : Fin 1) (i 0))) (((cfg7.win 2).blk t).view.emb (ix2 p q))
  refine (pay_apply _ _ p q).trans ?_
  unfold Cert.Gcn.act
  obtain ⟨e0, e1, e2, e3, e4, e5⟩ := idx_facts t
  have h0 : ((cfg7.win 0).blk t).view.emb (ix2 p q) = ((cfg7.win 2).blk t).view.emb (ix2 p q) := by
    funext a; apply Fin.ext
    match a with
    | ⟨0, _⟩ => show win7_0.index t (0 : Fin 2) * 2000 + 1 * p.val = win7_2.index t (0 : Fin 2) * 2000 + 1 * p.val; omega
    | ⟨1, _⟩ => show win7_0.index t (1 : Fin 2) * 128 + 1 * q.val = win7_2.index t (1 : Fin 2) * 128 + 1 * q.val; omega
  have h1 : ((cfg7.win 1).blk t).view.emb (ix2 (0 : Fin 1) q) = ix2 (0 : Fin 1) ((((cfg7.win 2).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 128 + 1 * q.val = win7_2.index t (1 : Fin 2) * 128 + 1 * q.val; omega
  refine congrArg Cert.Gcn.lrelu (congrArg₂ (fun a b : Ideal .f32 => FloatOps.addf a b) ?_ ?_)
  · exact congrArg (V c main_v61) h0
  · exact congrArg (V c main_v62) h1

/-- Which rows of the output a tile holds. -/
theorem mem_blk (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v63).slice (win7_2.rect t)).set ↔ _
  rw [View.set_slice_whole, Rect.mem_set_unit]
  exact Iff.rfl

/-- The 25 tiles cover the output: row r is in tile r / 2000. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 25 := N_7
  refine ⟨⟨(i 0).val / 2000, by rw [hN]; omega⟩, flush7_2 _, ?_⟩
  rw [mem_blk]
  obtain ⟨e0, e1, e2, e3, e4, e5⟩ := idx_facts ⟨(i 0).val / 2000, by rw [hN]; omega⟩
  intro a
  match a with
  | ⟨0, _⟩ => show win7_2.index _ (0 : Fin 2) * 2000 ≤ (i 0).val ∧ (i 0).val < win7_2.index _ (0 : Fin 2) * 2000 + 2000; rw [e5]; dsimp only; omega
  | ⟨1, _⟩ => show win7_2.index _ (1 : Fin 2) * 128 ≤ (i 1).val ∧ (i 1).val < win7_2.index _ (1 : Fin 2) * 128 + 128; rw [e4]; omega

/-- The output array after the region: `act` of the two arrays the region found. -/
theorem final (c : Dev nD) : (dat7 V c).arrAt 2 cfg7.N
    = Cert.Gcn.act (n := 50000) (d := 128) (V c main_v61) (fun i => V c main_v62 (ix2 (0 : Fin 1) (i 0))) :=
  (dat7 V c).arrAt_eq_of_cover 2 _ (fun t _ => flushed_eq V c t) cover

end Cert.KernelIdeal.Act7

end
-- ==== Proof.Mid.lean ====
/-
  The sparse product, and what the host operations between two regions leave in the next region's two arrays.

  Between a dense region and the following bias-and-rectifier region @main computes, on the host, the sparse
  product of the adjacency entries with the dense product: a negative column number is wrapped by the number of
  nodes, the rows of the dense product named by the column numbers are gathered, each gathered row is scaled by its
  edge's value, and the scaled rows are added into the rows named by the row numbers, starting from zero. The
  reference computes the same product by the same operations, so it is carried as one function, `spmm256` at
  256 features and `spmm128` at 128, and never opened. The stretch also re-lays the bias vector as a one-row array.
-/
import proofs.«102278_j2027224564236_1_alg».proof.Proof.Gen.KernelIdeal.Launch
import Idealize.ShloMosaic.Lib.StableHlo.Run

set_option maxRecDepth 16384

noncomputable section

namespace Cert.KernelIdeal.Mid

open Cert.KernelIdeal Cert.KernelIdeal.Gen Idealize.ShloMosaic Idealize.ShloMosaic.TcCoe Idealize.ShloMosaic.StableHlo
open Idealize.SL.Sem

variable {F : FTy → Type} [FloatOps F]

/-- The column numbers with a negative one wrapped by the number of nodes, as a one-column array. -/
def cols (col : (⟨S800000, .i32⟩ : BufTy).Contents (Elt F)) : (⟨S800000x1, .i32⟩ : BufTy).Contents (Elt F) :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The sparse product at 256 features: gather the rows named by the columns, scale each by its edge's value, add
    into the rows named by the row numbers. -/
def spmm256 (s : (⟨S50000x256, .f32⟩ : BufTy).Contents (Elt F)) (row col : (⟨S800000, .i32⟩ : BufTy).Contents (Elt F))
    (vals : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 row)
    (mulf (Host.gather gather_S50000x256_S800000x1_S800000x256_1_0_n_n_0_1_1256 s (cols col))
      (broadcastInDim S800000x256 ![0, 1] bcast_S800000x1_S800000x256_0_1
        (broadcastInDim S800000x1 ![0] bcast_S800000_S800000x1_0 vals)))

/-- The sparse product at 128 features. -/
def spmm128 (s : (⟨S50000x128, .f32⟩ : BufTy).Contents (Elt F)) (row col : (⟨S800000, .i32⟩ : BufTy).Contents (Elt F))
    (vals : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (Host.gather gather_S50000x128_S800000x1_S800000x128_1_0_n_n_0_1_1128 s (cols col))
      (broadcastInDim S800000x128 ![0, 1] bcast_S800000x1_S800000x128_0_1
        (broadcastInDim S800000x1 ![0] bcast_S800000_S800000x1_0 vals)))

variable (W : Valuation τ sig (Elt F))

set_option maxHeartbeats 4000000 in
/-- After the first stretch the first rectifier region's input holds the sparse product of the first dense product. -/
theorem host1_agg : StableHlo.after hostOps1 W (Proc.devRef .tc main_v13)
    = spmm256 (W (Proc.devRef .tc main_v0)) (W (Proc.devRef .tc main_arg1)) (W (Proc.devRef .tc main_arg2)) (W (Proc.devRef .tc main_arg3)) := by
  after_results
  rfl

set_option maxHeartbeats 4000000 in
/-- … and its bias window the first bias vector as one row. -/
theorem host1_bias : StableHlo.after hostOps1 W (Proc.devRef .tc main_v14)
    = shapeCast S1x256 (W (Proc.devRef .tc main_arg5)) shapeCasts_S256_S1x256 := by
  after_results
  rfl

set_option maxHeartbeats 4000000 in
/-- After the second stretch the second rectifier region's input holds the sparse product of the second dense product. -/
theorem host3_agg : StableHlo.after hostOps3 W (Proc.devRef .tc main_v29)
    = spmm256 (W (Proc.devRef .tc main_v16)) (W (Proc.devRef .tc main_arg1)) (W (Proc.devRef .tc main_arg2)) (W (Proc.devRef .tc main_arg3)) := by
  after_results
  rfl

set_option maxHeartbeats 4000000 in
/-- … and its bias window the second bias vector as one row. -/
theorem host3_bias : StableHlo.after hostOps3 W (Proc.devRef .tc main_v30)
    = shapeCast S1x256 (W (Proc.devRef .tc main_arg7)) shapeCasts_S256_S1x256 := by
  after_results
  rfl

set_option maxHeartbeats 4000000 in
/-- After the third stretch the third rectifier region's input holds the sparse product of the third dense product. -/
theorem host5_agg : StableHlo.after hostOps5 W (Proc.devRef .tc main_v45)
    = spmm128 (W (Proc.devRef .tc main_v32)) (W (Proc.devRef .tc main_arg1)) (W (Proc.devRef .tc main_arg2)) (W (Proc.devRef .tc main_arg3)) := by
  after_results
  rfl

set_option maxHeartbeats 4000000 in
/-- … and its bias window the third bias vector as one row. -/
theorem host5_bias : StableHlo.after hostOps5 W (Proc.devRef .tc main_v46)
    = shapeCast S1x128 (W (Proc.devRef .tc main_arg9)) shapeCasts_S128_S1x128 := by
  after_results
  rfl

set_option maxHeartbeats 4000000 in
/-- After the fourth stretch the fourth rectifier region's input holds the sparse product of the fourth dense product. -/
theorem host7_agg : StableHlo.after hostOps7 W (Proc.devRef .tc main_v61)
    = spmm128 (W (Proc.devRef .tc main_v48)) (W (Proc.devRef .tc main_arg1)) (W (Proc.devRef .tc main_arg2)) (W (Proc.devRef .tc main_arg3)) := by
  after_results
  rfl

set_option maxHeartbeats 4000000 in
/-- … and its bias window the fourth bias vector as one row. -/
theorem host7_bias : StableHlo.after hostOps7 W (Proc.devRef .tc main_v62)
    = shapeCast S1x128 (W (Proc.devRef .tc main_arg11)) shapeCasts_S128_S1x128 := by
  after_results
  rfl

end Cert.KernelIdeal.Mid

end
-- ==== Proof.KArgs.lean ====
/-
  The argument arrays along the fold: at every segment boundary an argument array still holds what it held at
  launch. A region changes only its output array, and no host operation writes an argument; so reading an argument
  at a boundary walks back, one segment at a time, to the launch memory.
-/
import proofs.«102278_j2027224564236_1_alg».proof.Proof.Gen.KernelIdeal.Frame

set_option maxRecDepth 16384

noncomputable section

namespace Cert.KernelIdeal.Args

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a stretch of host operations writes the buffer in question: it keeps its contents. -/
macro "host_kept " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### Argument 1 -/

theorem W1_arg1 (c : Dev nD) : W1 m ρ c (Proc.devRef .tc main_arg1) = m ((c : Thread nD τ).loc main_arg1) :=
  (W1_of_ne m ρ c main_arg1 (by decide)).trans rfl
theorem W2_arg1 (c : Dev nD) : W2 m ρ c (Proc.devRef .tc main_arg1) = m ((c : Thread nD τ).loc main_arg1) :=
  (show W2 m ρ c (Proc.devRef .tc main_arg1) = W1 m ρ c (Proc.devRef .tc main_arg1) by host_kept hostOps1).trans (W1_arg1 m ρ c)
theorem W3_arg1 (c : Dev nD) : W3 m ρ c (Proc.devRef .tc main_arg1) = m ((c : Thread nD τ).loc main_arg1) :=
  (W3_of_ne m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (show W5 m ρ c (Proc.devRef .tc main_arg1) = W4 m ρ c (Proc.devRef .tc main_arg1) by host_kept hostOps3).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of_ne m ρ c main_arg1 (by decide)).trans (W6_arg1 m ρ c)
theorem W8_arg1 (c : Dev nD) : W8 m ρ c (Proc.devRef .tc main_arg1) = m ((c : Thread nD τ).loc main_arg1) :=
  (show W8 m ρ c (Proc.devRef .tc main_arg1) = W7 m ρ c (Proc.devRef .tc main_arg1) by host_kept hostOps5).trans (W7_arg1 m ρ c)
theorem W9_arg1 (c : Dev nD) : W9 m ρ c (Proc.devRef .tc main_arg1) = m ((c : Thread nD τ).loc main_arg1) :=
  (W9_of_ne m ρ c main_arg1 (by decide)).trans (W8_arg1 m ρ c)
theorem W10_arg1 (c : Dev nD) : W10 m ρ c (Proc.devRef .tc main_arg1) = m ((c : Thread nD τ).loc main_arg1) :=
  (W10_of_ne m ρ c main_arg1 (by decide)).trans (W9_arg1 m ρ c)

/-! ### Argument 2 -/

theorem W1_arg2 (c : Dev nD) : W1 m ρ c (Proc.devRef .tc main_arg2) = m ((c : Thread nD τ).loc main_arg2) :=
  (W1_of_ne m ρ c main_arg2 (by decide)).trans rfl
theorem W2_arg2 (c : Dev nD) : W2 m ρ c (Proc.devRef .tc main_arg2) = m ((c : Thread nD τ).loc main_arg2) :=
  (show W2 m ρ c (Proc.devRef .tc main_arg2) = W1 m ρ c (Proc.devRef .tc main_arg2) by host_kept hostOps1).trans (W1_arg2 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by host_kept hostOps3).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of_ne m ρ c main_arg2 (by decide)).trans (W6_arg2 m ρ c)
theorem W8_arg2 (c : Dev nD) : W8 m ρ c (Proc.devRef .tc main_arg2) = m ((c : Thread nD τ).loc main_arg2) :=
  (show W8 m ρ c (Proc.devRef .tc main_arg2) = W7 m ρ c (Proc.devRef .tc main_arg2) by host_kept hostOps5).trans (W7_arg2 m ρ c)
theorem W9_arg2 (c : Dev nD) : W9 m ρ c (Proc.devRef .tc main_arg2) = m ((c : Thread nD τ).loc main_arg2) :=
  (W9_of_ne m ρ c main_arg2 (by decide)).trans (W8_arg2 m ρ c)
theorem W10_arg2 (c : Dev nD) : W10 m ρ c (Proc.devRef .tc main_arg2) = m ((c : Thread nD τ).loc main_arg2) :=
  (W10_of_ne m ρ c main_arg2 (by decide)).trans (W9_arg2 m ρ c)

/-! ### Argument 3 -/

theorem W1_arg3 (c : Dev nD) : W1 m ρ c (Proc.devRef .tc main_arg3) = m ((c : Thread nD τ).loc main_arg3) :=
  (W1_of_ne m ρ c main_arg3 (by decide)).trans rfl
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) by host_kept hostOps1).trans (W1_arg3 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) by host_kept hostOps3).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of_ne m ρ c main_arg3 (by decide)).trans (W6_arg3 m ρ c)
theorem W8_arg3 (c : Dev nD) : W8 m ρ c (Proc.devRef .tc main_arg3) = m ((c : Thread nD τ).loc main_arg3) :=
  (show W8 m ρ c (Proc.devRef .tc main_arg3) = W7 m ρ c (Proc.devRef .tc main_arg3) by host_kept hostOps5).trans (W7_arg3 m ρ c)
theorem W9_arg3 (c : Dev nD) : W9 m ρ c (Proc.devRef .tc main_arg3) = m ((c : Thread nD τ).loc main_arg3) :=
  (W9_of_ne m ρ c main_arg3 (by decide)).trans (W8_arg3 m ρ c)
theorem W10_arg3 (c : Dev nD) : W10 m ρ c (Proc.devRef .tc main_arg3) = m ((c : Thread nD τ).loc main_arg3) :=
  (W10_of_ne m ρ c main_arg3 (by decide)).trans (W9_arg3 m ρ c)

/-! ### Argument 5 -/

theorem W1_arg5 (c : Dev nD) : W1 m ρ c (Proc.devRef .tc main_arg5) = m ((c : Thread nD τ).loc main_arg5) :=
  (W1_of_ne m ρ c main_arg5 (by decide)).trans rfl

/-! ### Argument 6 -/

theorem W1_arg6 (c : Dev nD) : W1 m ρ c (Proc.devRef .tc main_arg6) = m ((c : Thread nD τ).loc main_arg6) :=
  (W1_of_ne m ρ c main_arg6 (by decide)).trans rfl
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) by host_kept hostOps1).trans (W1_arg6 m ρ c)
theorem W3_arg6 (c : Dev nD) : W3 m ρ c (Proc.devRef .tc main_arg6) = m ((c : Thread nD τ).loc main_arg6) :=
  (W3_of_ne m ρ c main_arg6 (by decide)).trans (W2_arg6 m ρ c)

/-! ### Argument 7 -/

theorem W1_arg7 (c : Dev nD) : W1 m ρ c (Proc.devRef .tc main_arg7) = m ((c : Thread nD τ).loc main_arg7) :=
  (W1_of_ne m ρ c main_arg7 (by decide)).trans rfl
theorem W2_arg7 (c : Dev nD) : W2 m ρ c (Proc.devRef .tc main_arg7) = m ((c : Thread nD τ).loc main_arg7) :=
  (show W2 m ρ c (Proc.devRef .tc main_arg7) = W1 m ρ c (Proc.devRef .tc main_arg7) by host_kept hostOps1).trans (W1_arg7 m ρ c)
theorem W3_arg7 (c : Dev nD) : W3 m ρ c (Proc.devRef .tc main_arg7) = m ((c : Thread nD τ).loc main_arg7) :=
  (W3_of_ne m ρ c main_arg7 (by decide)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ### Argument 8 -/

theorem W1_arg8 (c : Dev nD) : W1 m ρ c (Proc.devRef .tc main_arg8) = m ((c : Thread nD τ).loc main_arg8) :=
  (W1_of_ne m ρ c main_arg8 (by decide)).trans rfl
theorem W2_arg8 (c : Dev nD) : W2 m ρ c (Proc.devRef .tc main_arg8) = m ((c : Thread nD τ).loc main_arg8) :=
  (show W2 m ρ c (Proc.devRef .tc main_arg8) = W1 m ρ c (Proc.devRef .tc main_arg8) by host_kept hostOps1).trans (W1_arg8 m ρ c)
theorem W3_arg8 (c : Dev nD) : W3 m ρ c (Proc.devRef .tc main_arg8) = m ((c : Thread nD τ).loc main_arg8) :=
  (W3_of_ne m ρ c main_arg8 (by decide)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) by host_kept hostOps3).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)

/-! ### Argument 9 -/

theorem W1_arg9 (c : Dev nD) : W1 m ρ c (Proc.devRef .tc main_arg9) = m ((c : Thread nD τ).loc main_arg9) :=
  (W1_of_ne m ρ c main_arg9 (by decide)).trans rfl
theorem W2_arg9 (c : Dev nD) : W2 m ρ c (Proc.devRef .tc main_arg9) = m ((c : Thread nD τ).loc main_arg9) :=
  (show W2 m ρ c (Proc.devRef .tc main_arg9) = W1 m ρ c (Proc.devRef .tc main_arg9) by host_kept hostOps1).trans (W1_arg9 m ρ c)
theorem W3_arg9 (c : Dev nD) : W3 m ρ c (Proc.devRef .tc main_arg9) = m ((c : Thread nD τ).loc main_arg9) :=
  (W3_of_ne m ρ c main_arg9 (by decide)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (show W5 m ρ c (Proc.devRef .tc main_arg9) = W4 m ρ c (Proc.devRef .tc main_arg9) by host_kept hostOps3).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (W7_of_ne m ρ c main_arg9 (by decide)).trans (W6_arg9 m ρ c)

/-! ### Argument 10 -/

theorem W1_arg10 (c : Dev nD) : W1 m ρ c (Proc.devRef .tc main_arg10) = m ((c : Thread nD τ).loc main_arg10) :=
  (W1_of_ne m ρ c main_arg10 (by decide)).trans rfl
theorem W2_arg10 (c : Dev nD) : W2 m ρ c (Proc.devRef .tc main_arg10) = m ((c : Thread nD τ).loc main_arg10) :=
  (show W2 m ρ c (Proc.devRef .tc main_arg10) = W1 m ρ c (Proc.devRef .tc main_arg10) by host_kept hostOps1).trans (W1_arg10 m ρ c)
theorem W3_arg10 (c : Dev nD) : W3 m ρ c (Proc.devRef .tc main_arg10) = m ((c : Thread nD τ).loc main_arg10) :=
  (W3_of_ne m ρ c main_arg10 (by decide)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (show W5 m ρ c (Proc.devRef .tc main_arg10) = W4 m ρ c (Proc.devRef .tc main_arg10) by host_kept hostOps3).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (W7_of_ne m ρ c main_arg10 (by decide)).trans (W6_arg10 m ρ c)
theorem W8_arg10 (c : Dev nD) : W8 m ρ c (Proc.devRef .tc main_arg10) = m ((c : Thread nD τ).loc main_arg10) :=
  (show W8 m ρ c (Proc.devRef .tc main_arg10) = W7 m ρ c (Proc.devRef .tc main_arg10) by host_kept hostOps5).trans (W7_arg10 m ρ c)
theorem W9_arg10 (c : Dev nD) : W9 m ρ c (Proc.devRef .tc main_arg10) = m ((c : Thread nD τ).loc main_arg10) :=
  (W9_of_ne m ρ c main_arg10 (by decide)).trans (W8_arg10 m ρ c)

/-! ### Argument 11 -/

theorem W1_arg11 (c : Dev nD) : W1 m ρ c (Proc.devRef .tc main_arg11) = m ((c : Thread nD τ).loc main_arg11) :=
  (W1_of_ne m ρ c main_arg11 (by decide)).trans rfl
theorem W2_arg11 (c : Dev nD) : W2 m ρ c (Proc.devRef .tc main_arg11) = m ((c : Thread nD τ).loc main_arg11) :=
  (show W2 m ρ c (Proc.devRef .tc main_arg11) = W1 m ρ c (Proc.devRef .tc main_arg11) by host_kept hostOps1).trans (W1_arg11 m ρ c)
theorem W3_arg11 (c : Dev nD) : W3 m ρ c (Proc.devRef .tc main_arg11) = m ((c : Thread nD τ).loc main_arg11) :=
  (W3_of_ne m ρ c main_arg11 (by decide)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) :=
  (show W5 m ρ c (Proc.devRef .tc main_arg11) = W4 m ρ c (Proc.devRef .tc main_arg11) by host_kept hostOps3).trans (W4_arg11 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W7_arg11 (c : Dev nD) : W7 m ρ c (Proc.devRef .tc main_arg11) = m ((c : Thread nD τ).loc main_arg11) :=
  (W7_of_ne m ρ c main_arg11 (by decide)).trans (W6_arg11 m ρ c)
theorem W8_arg11 (c : Dev nD) : W8 m ρ c (Proc.devRef .tc main_arg11) = m ((c : Thread nD τ).loc main_arg11) :=
  (show W8 m ρ c (Proc.devRef .tc main_arg11) = W7 m ρ c (Proc.devRef .tc main_arg11) by host_kept hostOps5).trans (W7_arg11 m ρ c)
theorem W9_arg11 (c : Dev nD) : W9 m ρ c (Proc.devRef .tc main_arg11) = m ((c : Thread nD τ).loc main_arg11) :=
  (W9_of_ne m ρ c main_arg11 (by decide)).trans (W8_arg11 m ρ c)
theorem W10_arg11 (c : Dev nD) : W10 m ρ c (Proc.devRef .tc main_arg11) = m ((c : Thread nD τ).loc main_arg11) :=
  (W10_of_ne m ρ c main_arg11 (by decide)).trans (W9_arg11 m ρ c)

end Cert.KernelIdeal.Args

end
-- ==== Proof.Net.lean ====
/-
  The whole network as one function of the twelve argument arrays.

  Four graph-convolution layers in a row: each takes the node features so far, multiplies them with the layer's weight
  matrix (`dense`), takes the sparse product with the adjacency entries given by the row numbers, column numbers and
  edge values (`spmm256` or `spmm128`), adds the layer's bias along the rows and applies the leaky rectifier (`act`).
  The feature widths are 512 → 256 → 256 → 128 → 128.
-/
import proofs.«102278_j2027224564236_1_alg».proof.Proof.Spec
import proofs.«102278_j2027224564236_1_alg».proof.Proof.Mid

noncomputable section

namespace Cert.Gcn

open Cert.KernelIdeal Cert.KernelIdeal.Mid Idealize.ShloMosaic

/-- The first layer: 512 features to 256. -/
def layer1 (x0 : (⟨S50000x512, .f32⟩ : BufTy).Contents (Elt Ideal)) (x1 x2 : (⟨S800000, .i32⟩ : BufTy).Contents (Elt Ideal)) (x3 : (⟨S800000, .f32⟩ : BufTy).Contents (Elt Ideal))
    (x4 : (⟨S512x256, .f32⟩ : BufTy).Contents (Elt Ideal)) (x5 : (⟨S256, .f32⟩ : BufTy).Contents (Elt Ideal)) : (⟨S50000x256, .f32⟩ : BufTy).Contents (Elt Ideal) :=
  act (n := 50000) (d := 256) (spmm256 (F := Ideal) (dense (n := 50000) (k := 512) (d := 256) x0 x4) x1 x2 x3) x5

/-- The second layer: 256 features to 256. -/
def layer2 (h : (⟨S50000x256, .f32⟩ : BufTy).Contents (Elt Ideal)) (x1 x2 : (⟨S800000, .i32⟩ : BufTy).Contents (Elt Ideal)) (x3 : (⟨S800000, .f32⟩ : BufTy).Contents (Elt Ideal))
    (x6 : (⟨S256x256, .f32⟩ : BufTy).Contents (Elt Ideal)) (x7 : (⟨S256, .f32⟩ : BufTy).Contents (Elt Ideal)) : (⟨S50000x256, .f32⟩ : BufTy).Contents (Elt Ideal) :=
  act (n := 50000) (d := 256) (spmm256 (F := Ideal) (dense (n := 50000) (k := 256) (d := 256) h x6) x1 x2 x3) x7

/-- The third layer: 256 features to 128. -/
def layer3 (h : (⟨S50000x256, .f32⟩ : BufTy).Contents (Elt Ideal)) (x1 x2 : (⟨S800000, .i32⟩ : BufTy).Contents (Elt Ideal)) (x3 : (⟨S800000, .f32⟩ : BufTy).Contents (Elt Ideal))
    (x8 : (⟨S256x128, .f32⟩ : BufTy).Contents (Elt Ideal)) (x9 : (⟨S128, .f32⟩ : BufTy).Contents (Elt Ideal)) : (⟨S50000x128, .f32⟩ : BufTy).Contents (Elt Ideal) :=
  act (n := 50000) (d := 128) (spmm128 (F := Ideal) (dense (n := 50000) (k := 256) (d := 128) h x8) x1 x2 x3) x9

/-- The fourth layer: 128 features to 128. -/
def layer4 (h : (⟨S50000x128, .f32⟩ : BufTy).Contents (Elt Ideal)) (x1 x2 : (⟨S800000, .i32⟩ : BufTy).Contents (Elt Ideal)) (x3 : (⟨S800000, .f32⟩ : BufTy).Contents (Elt Ideal))
    (x10 : (⟨S128x128, .f32⟩ : BufTy).Contents (Elt Ideal)) (x11 : (⟨S128, .f32⟩ : BufTy).Contents (Elt Ideal)) : (⟨S50000x128, .f32⟩ : BufTy).Contents (Elt Ideal) :=
  act (n := 50000) (d := 128) (spmm128 (F := Ideal) (dense (n := 50000) (k := 128) (d := 128) h x10) x1 x2 x3) x11

/-- The four layers in a row. -/
def net (x0 : (⟨S50000x512, .f32⟩ : BufTy).Contents (Elt Ideal)) (x1 x2 : (⟨S800000, .i32⟩ : BufTy).Contents (Elt Ideal)) (x3 : (⟨S800000, .f32⟩ : BufTy).Contents (Elt Ideal))
    (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    (⟨S50000x128, .f32⟩ : BufTy).Contents (Elt Ideal) :=
  layer4 (layer3 (layer2 (layer1 x0 x1 x2 x3 x4 x5) x1 x2 x3 x6 x7) x1 x2 x3 x8 x9) x1 x2 x3 x10 x11

end Cert.Gcn

end
-- ==== Proof.KChain.lean ====
/-
  The result of the idealized kernel program as a function of its argument arrays.

  The fold of @main's twelve segments is read back from the result buffer to the launch memory, one segment at a
  time. A dense region leaves `dense` of its two input arrays, a bias-and-rectifier region `act` of its two, a stretch
  of host operations the sparse product of the array before it and the bias vector as one row; the argument arrays
  are the launch memory's at every boundary. Reading a bias vector re-laid as one row back along that row gives the
  vector. Composed, the result buffer holds `net` of the twelve launch arrays.
-/
import proofs.«102278_j2027224564236_1_alg».proof.Proof.Gen.KernelIdeal.Frame
import proofs.«102278_j2027224564236_1_alg».proof.Proof.Dense0
import proofs.«102278_j2027224564236_1_alg».proof.Proof.Dense2
import proofs.«102278_j2027224564236_1_alg».proof.Proof.Dense4
import proofs.«102278_j2027224564236_1_alg».proof.Proof.Dense6
import proofs.«102278_j2027224564236_1_alg».proof.Proof.Act1
import proofs.«102278_j2027224564236_1_alg».proof.Proof.Act3
import proofs.«102278_j2027224564236_1_alg».proof.Proof.Act5
import proofs.«102278_j2027224564236_1_alg».proof.Proof.Act7
import proofs.«102278_j2027224564236_1_alg».proof.Proof.Mid
import proofs.«102278_j2027224564236_1_alg».proof.Proof.KArgs
import proofs.«102278_j2027224564236_1_alg».proof.Proof.Net
import Idealize.ShloMosaic.Lib.ValueLayout

set_option maxRecDepth 16384

noncomputable section

namespace Cert.KernelIdeal.Chain

open Cert.KernelIdeal Cert.KernelIdeal.Gen Cert.KernelIdeal.Args Cert.KernelIdeal.Mid Cert.Gcn
open Idealize.ShloMosaic Idealize.ShloMosaic.TcCoe Idealize.ShloMosaic.ValueIdx Idealize.SL.Sem

/-- A function of four arguments takes equal arguments to equal values. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-- A vector re-laid as a one-row array and read back along that row is the vector. -/
theorem bias_row {d : Nat} (b : (⟨1, ![d]⟩ : Shape).Idx → Ideal .f32) (h : (⟨1, ![d]⟩ : Shape).ShapeCasts ⟨2, ![1, d]⟩) :
    (fun i : (⟨1, ![d]⟩ : Shape).Idx => shapeCast ⟨2, ![1, d]⟩ b h (ix2 (0 : Fin 1) (i 0))) = b :=
  funext fun i => (shapeCast_a_1a_apply b h 0 (i 0)).trans (congrArg b (eq_ix1 i).symm)

/-- The one row of a one-row array, as a vector. -/
def row256 (x : S1x256.Idx → Ideal .f32) : S256.Idx → Ideal .f32 := fun i => x (ix2 (0 : Fin 1) (i 0))
def row128 (x : S1x128.Idx → Ideal .f32) : S128.Idx → Ideal .f32 := fun i => x (ix2 (0 : Fin 1) (i 0))

theorem row_cast256 (b : S256.Idx → Ideal .f32) : row256 (shapeCast S1x256 b shapeCasts_S256_S1x256) = b :=
  bias_row (d := 256) b _
theorem row_cast128 (b : S128.Idx → Ideal .f32) : row128 (shapeCast S1x128 b shapeCasts_S128_S1x128) = b :=
  bias_row (d := 128) b _

/-- A bias-and-rectifier pass whose input is `t'` and whose bias window holds the vector `b` as one row. -/
theorem act_step256 (t t' : S50000x256.Idx → Ideal .f32) (r : S1x256.Idx → Ideal .f32) (b : S256.Idx → Ideal .f32)
    (ht : t = t') (hr : r = shapeCast S1x256 b shapeCasts_S256_S1x256) :
    act (n := 50000) (d := 256) t (row256 r) = act (n := 50000) (d := 256) t' b := by
  subst ht hr
  exact congrArg (act (n := 50000) (d := 256) t) (row_cast256 b)
theorem act_step128 (t t' : S50000x128.Idx → Ideal .f32) (r : S1x128.Idx → Ideal .f32) (b : S128.Idx → Ideal .f32)
    (ht : t = t') (hr : r = shapeCast S1x128 b shapeCasts_S128_S1x128) :
    act (n := 50000) (d := 128) t (row128 r) = act (n := 50000) (d := 128) t' b := by
  subst ht hr
  exact congrArg (act (n := 50000) (d := 128) t) (row_cast128 b)

variable (m : (ℓ : Loc nD τ sig) → Buf (Elt Ideal) ℓ) (ρ : Dev nD → PrngReg)

/-- The node features after each layer, from the launch arrays. -/
def H1 (c : Dev nD) := layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def H2 (c : Dev nD) := layer2 (H1 m c) (m ((c : Thread nD τ).loc main_arg1)) (m ((c : Thread nD τ).loc main_arg2)) (m ((c : Thread nD τ).loc main_arg3)) (m ((c : Thread nD τ).loc main_arg6)) (m ((c : Thread nD τ).loc main_arg7))
def H3 (c : Dev nD) := layer3 (H2 m c) (m ((c : Thread nD τ).loc main_arg1)) (m ((c : Thread nD τ).loc main_arg2)) (m ((c : Thread nD τ).loc main_arg3)) (m ((c : Thread nD τ).loc main_arg8)) (m ((c : Thread nD τ).loc main_arg9))
def H4 (c : Dev nD) := layer4 (H3 m c) (m ((c : Thread nD τ).loc main_arg1)) (m ((c : Thread nD τ).loc main_arg2)) (m ((c : Thread nD τ).loc main_arg3)) (m ((c : Thread nD τ).loc main_arg10)) (m ((c : Thread nD τ).loc main_arg11))

/-! ### The first layer -/

theorem v0_W1 (c : Dev nD) : W1 m ρ c (Proc.devRef .tc main_v0)
    = dense (n := 50000) (k := 512) (d := 256) (m ((c : Thread nD τ).loc main_arg0)) (m ((c : Thread nD τ).loc main_arg4)) :=
  (W1_arr m ρ c 2).trans (Dense0.final (V0 m ρ) c)

theorem v13_W2 (c : Dev nD) : W2 m ρ c (Proc.devRef .tc main_v13)
    = spmm256 (F := Ideal) (dense (n := 50000) (k := 512) (d := 256) (m ((c : Thread nD τ).loc main_arg0)) (m ((c : Thread nD τ).loc main_arg4))) (m ((c : Thread nD τ).loc main_arg1)) (m ((c : Thread nD τ).loc main_arg2)) (m ((c : Thread nD τ).loc main_arg3)) :=
  (host1_agg (W1 m ρ c)).trans (congr4 (spmm256 (F := Ideal)) (v0_W1 m ρ c) (W1_arg1 m ρ c) (W1_arg2 m ρ c) (W1_arg3 m ρ c))

theorem v14_W2 (c : Dev nD) : W2 m ρ c (Proc.devRef .tc main_v14) = shapeCast S1x256 (m ((c : Thread nD τ).loc main_arg5)) shapeCasts_S256_S1x256 :=
  (host1_bias (W1 m ρ c)).trans (congrArg (fun x => shapeCast S1x256 x shapeCasts_S256_S1x256) (W1_arg5 m ρ c))

/-- What the region leaves, from the launch arrays. -/
theorem v15_arr (c : Dev nD) : (dat1 (V2 m ρ) c).arrAt 2 cfg1.N
    = act (n := 50000) (d := 256) (spmm256 (F := Ideal) (dense (n := 50000) (k := 512) (d := 256) (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)) :=
  ((Act1.final (V2 m ρ) c :
      (dat1 (V2 m ρ) c).arrAt 2 cfg1.N = act (n := 50000) (d := 256) (V2 m ρ c main_v13) (row256 (V2 m ρ c main_v14)))).trans
    (act_step256 _ _ _ _ (v13_W2 m ρ c) (v14_W2 m ρ c))

theorem H1_eq (c : Dev nD) : act (n := 50000) (d := 256) (spmm256 (F := Ideal) (dense (n := 50000) (k := 512) (d := 256) (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)) = H1 m c := rfl

theorem v15_W3 (c : Dev nD) : W3 m ρ c (Proc.devRef .tc main_v15) = H1 m c :=
  (W3_arr m ρ c 2).trans ((v15_arr m ρ c).trans (H1_eq m c))

/-! ### The second layer -/

theorem v16_W4 (c : Dev nD) : W4 m ρ c (Proc.devRef .tc main_v16)
    = dense (n := 50000) (k := 256) (d := 256) (H1 m c) (m ((c : Thread nD τ).loc main_arg6)) :=
  (W4_arr m ρ c 2).trans ((Dense2.final (V3 m ρ) c).trans
    (congrArg₂ (dense (n := 50000) (k := 256) (d := 256)) (v15_W3 m ρ c) (W3_arg6 m ρ c)))

theorem v29_W5 (c : Dev nD) : W5 m ρ c (Proc.devRef .tc main_v29)
    = spmm256 (F := Ideal) (dense (n := 50000) (k := 256) (d := 256) (H1 m c) (m ((c : Thread nD τ).loc main_arg6))) (m ((c : Thread nD τ).loc main_arg1)) (m ((c : Thread nD τ).loc main_arg2)) (m ((c : Thread nD τ).loc main_arg3)) :=
  (host3_agg (W4 m ρ c)).trans (congr4 (spmm256 (F := Ideal)) (v16_W4 m ρ c) (W4_arg1 m ρ c) (W4_arg2 m ρ c) (W4_arg3 m ρ c))

theorem v30_W5 (c : Dev nD) : W5 m ρ c (Proc.devRef .tc main_v30) = shapeCast S1x256 (m ((c : Thread nD τ).loc main_arg7)) shapeCasts_S256_S1x256 :=
  (host3_bias (W4 m ρ c)).trans (congrArg (fun x => shapeCast S1x256 x shapeCasts_S256_S1x256) (W4_arg7 m ρ c))

/-- What the region leaves, from the launch arrays. -/
theorem v31_arr (c : Dev nD) : (dat3 (V5 m ρ) c).arrAt 2 cfg3.N
    = act (n := 50000) (d := 256) (spmm256 (F := Ideal) (dense (n := 50000) (k := 256) (d := 256) (H1 m c) (m ((c : Thread nD τ).loc main_arg6))) (m ((c : Thread nD τ).loc main_arg1)) (m ((c : Thread nD τ).loc main_arg2)) (m ((c : Thread nD τ).loc main_arg3))) (m ((c : Thread nD τ).loc main_arg7)) :=
  ((Act3.final (V5 m ρ) c :
      (dat3 (V5 m ρ) c).arrAt 2 cfg3.N = act (n := 50000) (d := 256) (V5 m ρ c main_v29) (row256 (V5 m ρ c main_v30)))).trans
    (act_step256 _ _ _ _ (v29_W5 m ρ c) (v30_W5 m ρ c))

theorem H2_eq (c : Dev nD) : act (n := 50000) (d := 256) (spmm256 (F := Ideal) (dense (n := 50000) (k := 256) (d := 256) (H1 m c) (m ((c : Thread nD τ).loc main_arg6))) (m ((c : Thread nD τ).loc main_arg1)) (m ((c : Thread nD τ).loc main_arg2)) (m ((c : Thread nD τ).loc main_arg3))) (m ((c : Thread nD τ).loc main_arg7)) = H2 m c := rfl

theorem v31_W6 (c : Dev nD) : W6 m ρ c (Proc.devRef .tc main_v31) = H2 m c :=
  (W6_arr m ρ c 2).trans ((v31_arr m ρ c).trans (H2_eq m c))

/-! ### The third layer -/

theorem v32_W7 (c : Dev nD) : W7 m ρ c (Proc.devRef .tc main_v32)
    = dense (n := 50000) (k := 256) (d := 128) (H2 m c) (m ((c : Thread nD τ).loc main_arg8)) :=
  (W7_arr m ρ c 2).trans ((Dense4.final (V6 m ρ) c).trans
    (congrArg₂ (dense (n := 50000) (k := 256) (d := 128)) (v31_W6 m ρ c) (W6_arg8 m ρ c)))

theorem v45_W8 (c : Dev nD) : W8 m ρ c (Proc.devRef .tc main_v45)
    = spmm128 (F := Ideal) (dense (n := 50000) (k := 256) (d := 128) (H2 m c) (m ((c : Thread nD τ).loc main_arg8))) (m ((c : Thread nD τ).loc main_arg1)) (m ((c : Thread nD τ).loc main_arg2)) (m ((c : Thread nD τ).loc main_arg3)) :=
  (host5_agg (W7 m ρ c)).trans (congr4 (spmm128 (F := Ideal)) (v32_W7 m ρ c) (W7_arg1 m ρ c) (W7_arg2 m ρ c) (W7_arg3 m ρ c))

theorem v46_W8 (c : Dev nD) : W8 m ρ c (Proc.devRef .tc main_v46) = shapeCast S1x128 (m ((c : Thread nD τ).loc main_arg9)) shapeCasts_S128_S1x128 :=
  (host5_bias (W7 m ρ c)).trans (congrArg (fun x => shapeCast S1x128 x shapeCasts_S128_S1x128) (W7_arg9 m ρ c))

/-- What the region leaves, from the launch arrays. -/
theorem v47_arr (c : Dev nD) : (dat5 (V8 m ρ) c).arrAt 2 cfg5.N
    = act (n := 50000) (d := 128) (spmm128 (F := Ideal) (dense (n := 50000) (k := 256) (d := 128) (H2 m c) (m ((c : Thread nD τ).loc main_arg8))) (m ((c : Thread nD τ).loc main_arg1)) (m ((c : Thread nD τ).loc main_arg2)) (m ((c : Thread nD τ).loc main_arg3))) (m ((c : Thread nD τ).loc main_arg9)) :=
  ((Act5.final (V8 m ρ) c :
      (dat5 (V8 m ρ) c).arrAt 2 cfg5.N = act (n := 50000) (d := 128) (V8 m ρ c main_v45) (row128 (V8 m ρ c main_v46)))).trans
    (act_step128 _ _ _ _ (v45_W8 m ρ c) (v46_W8 m ρ c))

theorem H3_eq (c : Dev nD) : act (n := 50000) (d := 128) (spmm128 (F := Ideal) (dense (n := 50000) (k := 256) (d := 128) (H2 m c) (m ((c : Thread nD τ).loc main_arg8))) (m ((c : Thread nD τ).loc main_arg1)) (m ((c : Thread nD τ).loc main_arg2)) (m ((c : Thread nD τ).loc main_arg3))) (m ((c : Thread nD τ).loc main_arg9)) = H3 m c := rfl

theorem v47_W9 (c : Dev nD) : W9 m ρ c (Proc.devRef .tc main_v47) = H3 m c :=
  (W9_arr m ρ c 2).trans ((v47_arr m ρ c).trans (H3_eq m c))

/-! ### The fourth layer -/

theorem v48_W10 (c : Dev nD) : W10 m ρ c (Proc.devRef .tc main_v48)
    = dense (n := 50000) (k := 128) (d := 128) (H3 m c) (m ((c : Thread nD τ).loc main_arg10)) :=
  (W10_arr m ρ c 2).trans ((Dense6.final (V9 m ρ) c).trans
    (congrArg₂ (dense (n := 50000) (k := 128) (d := 128)) (v47_W9 m ρ c) (W9_arg10 m ρ c)))

theorem v61_W11 (c : Dev nD) : W11 m ρ c (Proc.devRef .tc main_v61)
    = spmm128 (F := Ideal) (dense (n := 50000) (k := 128) (d := 128) (H3 m c) (m ((c : Thread nD τ).loc main_arg10))) (m ((c : Thread nD τ).loc main_arg1)) (m ((c : Thread nD τ).loc main_arg2)) (m ((c : Thread nD τ).loc main_arg3)) :=
  (host7_agg (W10 m ρ c)).trans (congr4 (spmm128 (F := Ideal)) (v48_W10 m ρ c) (W10_arg1 m ρ c) (W10_arg2 m ρ c) (W10_arg3 m ρ c))

theorem v62_W11 (c : Dev nD) : W11 m ρ c (Proc.devRef .tc main_v62) = shapeCast S1x128 (m ((c : Thread nD τ).loc main_arg11)) shapeCasts_S128_S1x128 :=
  (host7_bias (W10 m ρ c)).trans (congrArg (fun x => shapeCast S1x128 x shapeCasts_S128_S1x128) (W10_arg11 m ρ c))

/-- What the region leaves, from the launch arrays. -/
theorem v63_arr (c : Dev nD) : (dat7 (V11 m ρ) c).arrAt 2 cfg7.N
    = act (n := 50000) (d := 128) (spmm128 (F := Ideal) (dense (n := 50000) (k := 128) (d := 128) (H3 m c) (m ((c : Thread nD τ).loc main_arg10))) (m ((c : Thread nD τ).loc main_arg1)) (m ((c : Thread nD τ).loc main_arg2)) (m ((c : Thread nD τ).loc main_arg3))) (m ((c : Thread nD τ).loc main_arg11)) :=
  ((Act7.final (V11 m ρ) c :
      (dat7 (V11 m ρ) c).arrAt 2 cfg7.N = act (n := 50000) (d := 128) (V11 m ρ c main_v61) (row128 (V11 m ρ c main_v62)))).trans
    (act_step128 _ _ _ _ (v61_W11 m ρ c) (v62_W11 m ρ c))

theorem H4_eq (c : Dev nD) : act (n := 50000) (d := 128) (spmm128 (F := Ideal) (dense (n := 50000) (k := 128) (d := 128) (H3 m c) (m ((c : Thread nD τ).loc main_arg10))) (m ((c : Thread nD τ).loc main_arg1)) (m ((c : Thread nD τ).loc main_arg2)) (m ((c : Thread nD τ).loc main_arg3))) (m ((c : Thread nD τ).loc main_arg11)) = H4 m c := rfl

theorem v63_W12 (c : Dev nD) : W12 m ρ c (Proc.devRef .tc main_v63) = H4 m c :=
  (W12_arr m ρ c 2).trans ((v63_arr m ρ c).trans (H4_eq m c))

/-- The result buffer at the end of the fold holds the network of the launch arrays. -/
theorem net_eq (c : Dev nD) : H4 m c
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

theorem result_eq (c : Dev nD) : W12 m ρ c (Proc.devRef .tc main_v63)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (v63_W12 m ρ c).trans (net_eq m c)

end Cert.KernelIdeal.Chain

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«102278_j2027224564236_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefSide.lean ====
/-
  The reference program's result as the same function of the argument arrays.

  The reference computes each layer on the host: a matrix product, the sparse product by the same gather, scaling
  and scatter-add as the kernel program, the bias broadcast over the rows and added, a comparison with zero, a
  product with one quarter, and a selection between the two. Read at an index, the matrix product is `dense` (the sum
  over the shared axis, in no order), the broadcast bias is the bias entry of the index's column, and comparison,
  product and selection are the rectifier of the sum: each layer is `act` of the sparse product of `dense`, and the
  four in a row are `net`.
-/
import proofs.«102278_j2027224564236_1_alg».proof.Proof.RefReadP
import proofs.«102278_j2027224564236_1_alg».proof.Proof.Net
import proofs.«102278_j2027224564236_1_alg».proof.Proof.LibHostDot

set_option maxRecDepth 16384

noncomputable section

namespace Cert.ReferenceIdeal.RefValue

open Cert.ReferenceIdeal Cert.ReferenceIdeal.ReadP Idealize.ShloMosaic Idealize.ShloMosaic.ValueIdx

/-! ### Layer 1 -/

/-- The layer's matrix product is `dense` of the features so far and the weight matrix. -/
theorem dot1 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) :
    val_main_v0 (F := Ideal) x0 x4 = Cert.Gcn.dense (n := 50000) (k := 512) (d := 256) x0 x4 := by
  funext i
  obtain ⟨p, r, rfl⟩ : ∃ (p : Fin 50000) (r : Fin 256), i = ix2 p r := ⟨i 0, i 1, eq_ix2 i⟩
  unfold val_main_v0 Cert.Gcn.dense
  exact Cert.LibHostDot.dotGeneral_plain _ _ _ _ p r

/-- The layer's scatter-add result is the sparse product of its matrix product. -/
theorem sparse1 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) :
    val_main_v13 (F := Ideal) x0 x1 x2 x3 x4 = Cert.KernelIdeal.Mid.spmm256 (F := Ideal) (val_main_v0 (F := Ideal) x0 x4) x1 x2 x3 := rfl

/-- The layer's result is `act` of the sparse product of `dense`. -/
theorem layer1_eq (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) :
    val_main_v21 (F := Ideal) x0 x1 x2 x3 x4 x5 = Cert.Gcn.layer1 x0 x1 x2 x3 x4 x5 := by
  funext i
  have hi : idx_main_v14 (idx_main_v15 i) = ix1 (i 1) := funext fun a => match a with | ⟨0, _⟩ => rfl
  rw [val_main_v21_apply, val_main_v18_apply, val_main_v20_apply, val_main_v16_apply, val_main_v17_apply, val_main_v19_apply,
    val_main_cst_1_apply, val_main_cst_2_apply, val_main_v15_apply, val_main_v14_apply, hi, sparse1 x0 x1 x2 x3 x4 x5, dot1 x0 x1 x2 x3 x4 x5]
  rfl

/-! ### Layer 2 -/

/-- The layer's matrix product is `dense` of the features so far and the weight matrix. -/
theorem dot2 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v22 (F := Ideal) x0 x1 x2 x3 x4 x5 x6 = Cert.Gcn.dense (n := 50000) (k := 256) (d := 256) (val_main_v21 (F := Ideal) x0 x1 x2 x3 x4 x5) x6 := by
  funext i
  obtain ⟨p, r, rfl⟩ : ∃ (p : Fin 50000) (r : Fin 256), i = ix2 p r := ⟨i 0, i 1, eq_ix2 i⟩
  unfold val_main_v22 Cert.Gcn.dense
  exact Cert.LibHostDot.dotGeneral_plain _ _ _ _ p r

/-- The layer's scatter-add result is the sparse product of its matrix product. -/
theorem sparse2 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v35 (F := Ideal) x0 x1 x2 x3 x4 x5 x6 = Cert.KernelIdeal.Mid.spmm256 (F := Ideal) (val_main_v22 (F := Ideal) x0 x1 x2 x3 x4 x5 x6) x1 x2 x3 := rfl

/-- The layer's result is `act` of the sparse product of `dense`. -/
theorem layer2_eq (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v43 (F := Ideal) x0 x1 x2 x3 x4 x5 x6 x7 = Cert.Gcn.layer2 (val_main_v21 (F := Ideal) x0 x1 x2 x3 x4 x5) x1 x2 x3 x6 x7 := by
  funext i
  have hi : idx_main_v36 (idx_main_v37 i) = ix1 (i 1) := funext fun a => match a with | ⟨0, _⟩ => rfl
  rw [val_main_v43_apply, val_main_v40_apply, val_main_v42_apply, val_main_v38_apply, val_main_v39_apply, val_main_v41_apply,
    val_main_cst_6_apply, val_main_cst_7_apply, val_main_v37_apply, val_main_v36_apply, hi, sparse2 x0 x1 x2 x3 x4 x5 x6 x7, dot2 x0 x1 x2 x3 x4 x5 x6 x7]
  rfl

/-! ### Layer 3 -/

/-- The layer's matrix product is `dense` of the features so far and the weight matrix. -/
theorem dot3 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) :
    val_main_v44 (F := Ideal) x0 x1 x2 x3 x4 x5 x6 x7 x8 = Cert.Gcn.dense (n := 50000) (k := 256) (d := 128) (val_main_v43 (F := Ideal) x0 x1 x2 x3 x4 x5 x6 x7) x8 := by
  funext i
  obtain ⟨p, r, rfl⟩ : ∃ (p : Fin 50000) (r : Fin 128), i = ix2 p r := ⟨i 0, i 1, eq_ix2 i⟩
  unfold val_main_v44 Cert.Gcn.dense
  exact Cert.LibHostDot.dotGeneral_plain _ _ _ _ p r

/-- The layer's scatter-add result is the sparse product of its matrix product. -/
theorem sparse3 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) :
    val_main_v57 (F := Ideal) x0 x1 x2 x3 x4 x5 x6 x7 x8 = Cert.KernelIdeal.Mid.spmm128 (F := Ideal) (val_main_v44 (F := Ideal) x0 x1 x2 x3 x4 x5 x6 x7 x8) x1 x2 x3 := rfl

/-- The layer's result is `act` of the sparse product of `dense`. -/
theorem layer3_eq (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) :
    val_main_v65 (F := Ideal) x0 x1 x2 x3 x4 x5 x6 x7 x8 x9 = Cert.Gcn.layer3 (val_main_v43 (F := Ideal) x0 x1 x2 x3 x4 x5 x6 x7) x1 x2 x3 x8 x9 := by
  funext i
  have hi : idx_main_v58 (idx_main_v59 i) = ix1 (i 1) := funext fun a => match a with | ⟨0, _⟩ => rfl
  rw [val_main_v65_apply, val_main_v62_apply, val_main_v64_apply, val_main_v60_apply, val_main_v61_apply, val_main_v63_apply,
    val_main_cst_11_apply, val_main_cst_12_apply, val_main_v59_apply, val_main_v58_apply, hi, sparse3 x0 x1 x2 x3 x4 x5 x6 x7 x8 x9, dot3 x0 x1 x2 x3 x4 x5 x6 x7 x8 x9]
  rfl

/-! ### Layer 4 -/

/-- The layer's matrix product is `dense` of the features so far and the weight matrix. -/
theorem dot4 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v66 (F := Ideal) x0 x1 x2 x3 x4 x5 x6 x7 x8 x9 x10 = Cert.Gcn.dense (n := 50000) (k := 128) (d := 128) (val_main_v65 (F := Ideal) x0 x1 x2 x3 x4 x5 x6 x7 x8 x9) x10 := by
  funext i
  obtain ⟨p, r, rfl⟩ : ∃ (p : Fin 50000) (r : Fin 128), i = ix2 p r := ⟨i 0, i 1, eq_ix2 i⟩
  unfold val_main_v66 Cert.Gcn.dense
  exact Cert.LibHostDot.dotGeneral_plain _ _ _ _ p r

/-- The layer's scatter-add result is the sparse product of its matrix product. -/
theorem sparse4 (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v79 (F := Ideal) x0 x1 x2 x3 x4 x5 x6 x7 x8 x9 x10 = Cert.KernelIdeal.Mid.spmm128 (F := Ideal) (val_main_v66 (F := Ideal) x0 x1 x2 x3 x4 x5 x6 x7 x8 x9 x10) x1 x2 x3 := rfl

/-- The layer's result is `act` of the sparse product of `dense`. -/
theorem layer4_eq (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v87 (F := Ideal) x0 x1 x2 x3 x4 x5 x6 x7 x8 x9 x10 x11 = Cert.Gcn.layer4 (val_main_v65 (F := Ideal) x0 x1 x2 x3 x4 x5 x6 x7 x8 x9) x1 x2 x3 x10 x11 := by
  funext i
  have hi : idx_main_v80 (idx_main_v81 i) = ix1 (i 1) := funext fun a => match a with | ⟨0, _⟩ => rfl
  rw [val_main_v87_apply, val_main_v84_apply, val_main_v86_apply, val_main_v82_apply, val_main_v83_apply, val_main_v85_apply,
    val_main_cst_16_apply, val_main_cst_17_apply, val_main_v81_apply, val_main_v80_apply, hi, sparse4 x0 x1 x2 x3 x4 x5 x6 x7 x8 x9 x10 x11, dot4 x0 x1 x2 x3 x4 x5 x6 x7 x8 x9 x10 x11]
  rfl

/-- The reference's result is the network of its argument arrays. -/
theorem result_eq (x0 : (⟨S50000x512, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v87 (F := Ideal) x0 x1 x2 x3 x4 x5 x6 x7 x8 x9 x10 x11 = Cert.Gcn.net x0 x1 x2 x3 x4 x5 x6 x7 x8 x9 x10 x11 := by
  rw [layer4_eq, layer3_eq, layer2_eq, layer1_eq]
  rfl

end Cert.ReferenceIdeal.RefValue

end
-- ==== Proof.lean ====
/-
  The proof of `Cert.Claim`: the tiled graph-convolution network against its plain reference.

  Both programs compute four layers `h ↦ lrelu (A · (h · W) + b)` over 50000 nodes and 800000 adjacency entries. The
  kernel program computes each dense product `h · W` and each bias-and-rectifier pass in a region that walks the rows
  in 25 tiles of 2000, with the sparse product `A · _` between them on the host; the reference computes everything on
  the host. Over the extended reals narrowing to sixteen bits is the identity and a sum has no order, so a product
  computed tile by tile is the product computed at once, row for row (`dense`); the bias and the rectifier act entry
  by entry (`act`); and the sparse product is the same operations on both sides, carried as one function. Hence both
  results are `net` of the twelve argument arrays.

  * The three frames: the two kernel programs' by their generated frame proofs, the reference's by its run with the
    result dropped.
  * The idealized kernel is the kernel's own text read over the extended reals: the ledger of rewrites is empty.
  * The value claim: the kernel program's run names its result buffer as the fold of its twelve segments, which is
    read back to `net` of the launch arrays; the reference's run names its result as its operations' composed term,
    which is read, one operation at a time, as `net` of its arrays; the arrays agree.
-/
import proofs.«102278_j2027224564236_1_alg».proof.Defs
import proofs.«102278_j2027224564236_1_alg».proof.Proof.Gen.Kernel
import proofs.«102278_j2027224564236_1_alg».proof.Proof.Gen.Kernel.Frame
import proofs.«102278_j2027224564236_1_alg».proof.Proof.Gen.KernelIdeal
import proofs.«102278_j2027224564236_1_alg».proof.Proof.Gen.KernelIdeal.Frame
import proofs.«102278_j2027224564236_1_alg».proof.Proof.Gen.ReferenceIdeal
import proofs.«102278_j2027224564236_1_alg».proof.Proof.Gen.Pre_finite_inputs
import proofs.«102278_j2027224564236_1_alg».proof.Proof.KRun
import proofs.«102278_j2027224564236_1_alg».proof.Proof.KChain
import proofs.«102278_j2027224564236_1_alg».proof.Proof.RefRunP
import proofs.«102278_j2027224564236_1_alg».proof.Proof.RefReadP
import proofs.«102278_j2027224564236_1_alg».proof.Proof.RefSide
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with `net` of the argument arrays in their result buffers; the arrays agree. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Chain.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.ReadP.val_main_v87_eq, Cert.ReferenceIdeal.RefValue.result_eq,
      e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
